-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x64 : Shape := ⟨3, ![8, 8192, 64]⟩
abbrev S8x8192x16 : Shape := ⟨3, ![8, 8192, 16]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel

variable [Facts]

def fn {F : FTy → Type} [FloatOps F] (main_arg0 : FVec F S8x8192x64 .f32) (main_arg1 : IVec S8x8192x16 32) : IVec S_ 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  main_v3
-- ==== Kernel.lean ====
abbrev S8x8192x64 : Shape := ⟨3, ![8, 8192, 64]⟩
abbrev S8x8192x16 : Shape := ⟨3, ![8, 8192, 16]⟩
abbrev S_ : Shape := ⟨0, ![]⟩
abbrev S8x8192x16x1 : Shape := ⟨4, ![8, 8192, 16, 1]⟩
abbrev S8x8192x16x64 : Shape := ⟨4, ![8, 8192, 16, 64]⟩
abbrev S8x8192x128x16 : Shape := ⟨4, ![8, 8192, 128, 16]⟩
abbrev S1x128x16x64 : Shape := ⟨4, ![1, 128, 16, 64]⟩
abbrev S1x128x64 : Shape := ⟨3, ![1, 128, 64]⟩
abbrev S1x128x128x16 : Shape := ⟨4, ![1, 128, 128, 16]⟩
abbrev S128x16x64 : Shape := ⟨3, ![128, 16, 64]⟩
abbrev S128x64 : Shape := ⟨2, ![128, 64]⟩
abbrev S128x1x64 : Shape := ⟨3, ![128, 1, 64]⟩
abbrev S128x64x16 : Shape := ⟨3, ![128, 64, 16]⟩
abbrev S128x64x1 : Shape := ⟨3, ![128, 64, 1]⟩
abbrev S1x128x64x16 : Shape := ⟨4, ![1, 128, 64, 16]⟩

abbrev nBuf : Space → Nat
  | .hbm => 12
  | .vmem => 6
  | .smem => 0
  | _ => 0

abbrev bufTy : (tb : Table) → Fin (tcTables nBuf tb) → BufTy
  | .hbm, ⟨0, _⟩ => ⟨S8x8192x64, .f32⟩
  | .hbm, ⟨1, _⟩ => ⟨S8x8192x16, .i32⟩
  | .hbm, ⟨2, _⟩ => ⟨S_, .i32⟩
  | .hbm, ⟨3, _⟩ => ⟨S8x8192x16, .i32⟩
  | .hbm, ⟨4, _⟩ => ⟨S8x8192x16, .i1⟩
  | .hbm, ⟨5, _⟩ => ⟨S_, .i32⟩
  | .hbm, ⟨6, _⟩ => ⟨S8x8192x16, .i32⟩
  | .hbm, ⟨7, _⟩ => ⟨S8x8192x16, .i32⟩
  | .hbm, ⟨8, _⟩ => ⟨S8x8192x16, .i32⟩
  | .hbm, ⟨9, _⟩ => ⟨S8x8192x16x1, .i32⟩
  | .hbm, ⟨10, _⟩ => ⟨S8x8192x16x64, .f32⟩
  | .hbm, ⟨11, _⟩ => ⟨S8x8192x128x16, .f32⟩
  | .local _ .vmem, ⟨0, _⟩ => ⟨S1x128x16x64, .f32⟩
  | .local _ .vmem, ⟨1, _⟩ => ⟨S1x128x16x64, .f32⟩
  | .local _ .vmem, ⟨2, _⟩ => ⟨S1x128x64, .f32⟩
  | .local _ .vmem, ⟨3, _⟩ => ⟨S1x128x64, .f32⟩
  | .local _ .vmem, ⟨4, _⟩ => ⟨S1x128x128x16, .f32⟩
  | .local _ .vmem, ⟨5, _⟩ => ⟨S1x128x128x16, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8x8192x16 : S_.BroadcastsInDim S8x8192x16 (![] : Fin 0 → Fin S8x8192x16.rank)
  bcast_S8x8192x16_S8x8192x16x1_0_1_2 : S8x8192x16.BroadcastsInDim S8x8192x16x1 (![0, 1, 2] : Fin 3 → Fin S8x8192x16x1.rank)
  inb_S1x128x16x64_S1x128x16x64_0_0_0_0 : ∀ a, (![0, 0, 0, 0] : Fin 4 → Nat) a + S1x128x16x64.size a ≤ S1x128x16x64.size a
  h_S1x128x16x64 : 0 < S1x128x16x64.numel
  shapeCasts_S1x128x16x64_S128x16x64 : S1x128x16x64.ShapeCasts S128x16x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S128x1x64 : S128x64.ShapeCasts S128x1x64
  shapeCasts_S128x1x64_S128x1x64 : S128x1x64.ShapeCasts S128x1x64
  broadcasts_S128x1x64_S128x16x64 : S128x1x64.Broadcasts S128x16x64
  transposes_S128x16x64_p0_2_1_S128x64x16 : S128x16x64.Transposes [0, 2, 1] S128x64x16
  shapeCasts_S128x64_S128x64x1 : S128x64.ShapeCasts S128x64x1
  shapeCasts_S128x64x1_S128x64x1 : S128x64x1.ShapeCasts S128x64x1
  broadcasts_S128x64x1_S128x64x16 : S128x64x1.Broadcasts S128x64x16
  inb_S1x128x128x16_S1x128x64x16_0_0_0_0 : ∀ a, (![0, 0, 0, 0] : Fin 4 → Nat) a + S1x128x64x16.size a ≤ S1x128x128x16.size a
  h_S1x128x64x16 : 0 < S1x128x64x16.numel
  shapeCasts_S1x128x64x16_S128x64x16 : S1x128x64x16.ShapeCasts S128x64x16
  shapeCasts_S128x64x16_S1x128x64x16 : S128x64x16.ShapeCasts S1x128x64x16
  inb_S1x128x128x16_S1x128x64x16_0_0_64_0 : ∀ a, (![0, 0, 64, 0] : Fin 4 → Nat) a + S1x128x64x16.size a ≤ S1x128x128x16.size a
  gather_S8x8192x64_S8x8192x16x1_S8x8192x16x64_3_1_0_0_1_3_1164_wf : GatherDims.WF S8x8192x64 S8x8192x16x1 S8x8192x16x64 [3] [1] [0] [1] [0] 3 ![1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x64.size a ≤ S8x8192x16x64.size a
  hwx0_0 : ∀ i : grid0.Coords, EltTy.bits .f32 = 32 ∨ (Rect.block (s := S8x8192x16x64) S1x128x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S8x8192x64.size a
  hwx0_1 : ∀ i : grid0.Coords, EltTy.bits .f32 = 32 ∨ (Rect.block (s := S8x8192x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128x16.size a ≤ S8x8192x128x16.size a
  hwx0_2 : ∀ i : grid0.Coords, EltTy.bits .f32 = 32 ∨ (Rect.block (s := S8x8192x128x16) S1x128x128x16.size (cc0_transform_2 i) (hinb0_2 i)).WholeWords (EltTy.packing .f32)

variable [Facts₀]

def gather_S8x8192x64_S8x8192x16x1_S8x8192x16x64_3_1_0_0_1_3_1164 : GatherDims S8x8192x64 S8x8192x16x1 S8x8192x16x64 where
  offsetDims := [3]
  collapsedSliceDims := [1]
  operandBatchingDims := [0]
  startIndicesBatchingDims := [0]
  startIndexMap := [1]
  indexVectorDim := 3
  sliceSizes := ![1, 1, 64]
  wf := gather_S8x8192x64_S8x8192x16x1_S8x8192x16x64_3_1_0_0_1_3_1164_wf

abbrev win0_0 : Pipeline.Window sig grid0 :=
  Pipeline.Window.ofSpec (Memref.whole main_v6) S1x128x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128x128x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x64 : Shape := ⟨3, ![8, 8192, 64]⟩
abbrev S8x8192x16 : Shape := ⟨3, ![8, 8192, 16]⟩
abbrev S_ : Shape := ⟨0, ![]⟩
abbrev S8x8192x16x1 : Shape := ⟨4, ![8, 8192, 16, 1]⟩
abbrev S8x8192x16x64 : Shape := ⟨4, ![8, 8192, 16, 64]⟩
abbrev S8x8192x1x64 : Shape := ⟨4, ![8, 8192, 1, 64]⟩
abbrev S8x8192x16x128 : Shape := ⟨4, ![8, 8192, 16, 128]⟩
abbrev S8x8192x128x16 : Shape := ⟨4, ![8, 8192, 128, 16]⟩

abbrev nBuf : Space → Nat
  | .hbm => 16
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S8x8192x16, .i32⟩
  | .hbm, ⟨2, _⟩ => ⟨S_, .i32⟩
  | .hbm, ⟨3, _⟩ => ⟨S8x8192x16, .i32⟩
  | .hbm, ⟨4, _⟩ => ⟨S8x8192x16, .i1⟩
  | .hbm, ⟨5, _⟩ => ⟨S_, .i32⟩
  | .hbm, ⟨6, _⟩ => ⟨S8x8192x16, .i32⟩
  | .hbm, ⟨7, _⟩ => ⟨S8x8192x16, .i32⟩
  | .hbm, ⟨8, _⟩ => ⟨S8x8192x16, .i32⟩
  | .hbm, ⟨9, _⟩ => ⟨S8x8192x16x1, .i32⟩
  | .hbm, ⟨10, _⟩ => ⟨S8x8192x16x64, .f32⟩
  | .hbm, ⟨11, _⟩ => ⟨S8x8192x1x64, .f32⟩
  | .hbm, ⟨12, _⟩ => ⟨S8x8192x16x64, .f32⟩
  | .hbm, ⟨13, _⟩ => ⟨S8x8192x16x64, .f32⟩
  | .hbm, ⟨14, _⟩ => ⟨S8x8192x16x128, .f32⟩
  | .hbm, ⟨15, _⟩ => ⟨S8x8192x128x16, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S_S8x8192x16 : S_.BroadcastsInDim S8x8192x16 (![] : Fin 0 → Fin S8x8192x16.rank)
  bcast_S8x8192x16_S8x8192x16x1_0_1_2 : S8x8192x16.BroadcastsInDim S8x8192x16x1 (![0, 1, 2] : Fin 3 → Fin S8x8192x16x1.rank)
  bcast_S8x8192x64_S8x8192x1x64_0_1_3 : S8x8192x64.BroadcastsInDim S8x8192x1x64 (![0, 1, 3] : Fin 3 → Fin S8x8192x1x64.rank)
  bcast_S8x8192x1x64_S8x8192x16x64_0_1_2_3 : S8x8192x1x64.BroadcastsInDim S8x8192x16x64 (![0, 1, 2, 3] : Fin 4 → Fin S8x8192x16x64.rank)
  concatenates_S8x8192x16x64_S8x8192x16x64_S8x8192x16x128_d3 : Shape.Concatenates [S8x8192x16x64, S8x8192x16x64] S8x8192x16x128 3
  transposes_S8x8192x16x128_S8x8192x128x16_0_1_3_2 : S8x8192x16x128.Transposes [0, 1, 3, 2] S8x8192x128x16
  gather_S8x8192x64_S8x8192x16x1_S8x8192x16x64_3_1_0_0_1_3_1164_wf : GatherDims.WF S8x8192x64 S8x8192x16x1 S8x8192x16x64 [3] [1] [0] [1] [0] 3 ![1, 1, 64]

variable [Facts₀]

def gather_S8x8192x64_S8x8192x16x1_S8x8192x16x64_3_1_0_0_1_3_1164 : GatherDims S8x8192x64 S8x8192x16x1 S8x8192x16x64 where
  offsetDims := [3]
  collapsedSliceDims := [1]
  operandBatchingDims := [0]
  startIndicesBatchingDims := [0]
  startIndexMap := [1]
  indexVectorDim := 3
  sliceSizes := ![1, 1, 64]
  wf := gather_S8x8192x64_S8x8192x16x1_S8x8192x16x64_3_1_0_0_1_3_1164_wf

class Facts : Prop extends Facts₀ where

variable [Facts]
-- ==== Proof.EdgeSpec.lean ====
/-
  The edge features of a point cloud, as ONE function of two arrays.

  A batch holds `N` points of 64 channels each (`x`), and for every point the feature rows of its 16 chosen
  neighbours (`g`: entry `(b, n, k, c)` is channel `c` of the `k`-th neighbour of point `n`). The result has 128
  channels per point and neighbour, channel axis before neighbour axis: at `(b, n, ch, k)` it holds

      g (b, n, k, ch) − x (b, n, ch)      for ch < 64     (the neighbour's feature relative to the point's own),
      x (b, n, ch − 64)                   for 64 ≤ ch     (the point's own feature, the same for every neighbour).

  In both halves the point is read at channel `ch mod 64`, and that is how the definition spells it: the case
  distinction then carries no proof. The two leading extents are parameters, so that the same definition reads a whole
  array and a block of it; `edge_restrict` says a block of the result is the result of the blocks.
  The subtraction is whatever the float instance `F` says it is: nothing here uses a law of it.
-/
import Idealize.ShloMosaic.Lib.ValueIdx

noncomputable section

namespace Cert.EdgeFeature

open Idealize.ShloMosaic Idealize.ShloMosaic.ValueIdx

variable {F : FTy → Type} [FloatOps F]

/-- The channel of the point that output channel `ch` reads: `ch mod 64`. -/
abbrev chan (ch : Fin 128) : Fin 64 := ⟨ch.val % 64, Nat.mod_lt _ (by decide)⟩

/-- The edge features of `B` batches of `N` points: the first 64 channels the neighbour's feature minus the point's,
    the last 64 the point's feature. -/
def edge {B N : Nat} (g : (⟨4, ![B, N, 16, 64]⟩ : Shape).Idx → F .f32) (x : (⟨3, ![B, N, 64]⟩ : Shape).Idx → F .f32) :
    (⟨4, ![B, N, 128, 16]⟩ : Shape).Idx → F .f32 := fun i =>
  if (i 2).val < 64 then FloatOps.subf (g (ix4 (i 0) (i 1) (i 3) (chan (i 2)))) (x (ix3 (i 0) (i 1) (chan (i 2))))
  else x (ix3 (i 0) (i 1) (chan (i 2)))

/-- A channel below 64 holds the difference. -/
theorem edge_lo {B N : Nat} (g : (⟨4, ![B, N, 16, 64]⟩ : Shape).Idx → F .f32) (x : (⟨3, ![B, N, 64]⟩ : Shape).Idx → F .f32)
    (i : (⟨4, ![B, N, 128, 16]⟩ : Shape).Idx) (h : (i 2).val < 64) :
    edge g x i = FloatOps.subf (g (ix4 (i 0) (i 1) (i 3) (chan (i 2)))) (x (ix3 (i 0) (i 1) (chan (i 2)))) :=
  if_pos h

/-- A channel from 64 on holds the point's own feature. -/
theorem edge_hi {B N : Nat} (g : (⟨4, ![B, N, 16, 64]⟩ : Shape).Idx → F .f32) (x : (⟨3, ![B, N, 64]⟩ : Shape).Idx → F .f32)
    (i : (⟨4, ![B, N, 128, 16]⟩ : Shape).Idx) (h : ¬(i 2).val < 64) :
    edge g x i = x (ix3 (i 0) (i 1) (chan (i 2))) :=
  if_neg h

/-- RESTRICTION. If index `i'` of a small result and index `i` of a large one have the same channel, and the small
    operands at `i'`'s point and neighbour are the large ones at `i`'s, channel by channel, the two results agree there:
    the edge features of a block of the arrays are the block of the edge features. -/
theorem edge_restrict {B N B' N' : Nat}
    (g : (⟨4, ![B, N, 16, 64]⟩ : Shape).Idx → F .f32) (x : (⟨3, ![B, N, 64]⟩ : Shape).Idx → F .f32)
    (g' : (⟨4, ![B', N', 16, 64]⟩ : Shape).Idx → F .f32) (x' : (⟨3, ![B', N', 64]⟩ : Shape).Idx → F .f32)
    (i : (⟨4, ![B, N, 128, 16]⟩ : Shape).Idx) (i' : (⟨4, ![B', N', 128, 16]⟩ : Shape).Idx)
    (hch : (i' 2).val = (i 2).val)
    (hg : ∀ c : Fin 64, g' (ix4 (i' 0) (i' 1) (i' 3) c) = g (ix4 (i 0) (i 1) (i 3) c))
    (hx : ∀ c : Fin 64, x' (ix3 (i' 0) (i' 1) c) = x (ix3 (i 0) (i 1) c)) :
    edge g' x' i' = edge g x i := by
  have e : chan (i' 2) = chan (i 2) := Fin.ext (by show (i' 2).val % 64 = (i 2).val % 64; rw [hch])
  unfold edge
  rw [hch, e, hg, hx]

end Cert.EdgeFeature

end
-- ==== Proof.EdgeBody.lean ====
/-
  What the kernel body leaves in its output block, read index by index.

  The body loads a block `f` of neighbour features, 128 points by 16 neighbours by 64 channels, and the block `c` of
  the same 128 points' own features; both carry a leading batch axis of extent one. It stores two pieces into
  the output block of 128 points by 128 channels by 16 neighbours: into channels 0–63 the difference `f − c` with the
  neighbour and channel axes exchanged, into channels 64–127 the points' features repeated along the neighbour axis. Each stored
  value is a chain of re-layings (casts that drop or add a unit axis, a broadcast along a unit axis, one transpose)
  around at most one subtraction, so at an index it reads ONE element of `f` and ONE of `c`:

      lower piece at (point r, channel ch, neighbour k) = f (r, k, ch) − c (r, ch),
      upper piece at (point r, channel ch, neighbour k) = c (r, ch).

  The two pieces tile the block (channels below 64, channels from 64 on), so the block the body leaves is the edge-feature
  function of `EdgeSpec` at one batch of 128 points: `block_eq`.
-/
import proofs.«159042_j79594333929751_2_alg».proof.Proof.Gen.KernelIdeal.Frame
import proofs.«159042_j79594333929751_2_alg».proof.Proof.EdgeSpec
import Idealize.ShloMosaic.Lib.Pipeline.Value
import Idealize.ShloMosaic.Lib.ValueIdx

noncomputable section

namespace Cert.KernelIdeal.EdgeBody

open Cert.KernelIdeal Cert.KernelIdeal.Gen Cert.EdgeFeature
open Idealize.ShloMosaic Idealize.ShloMosaic.ValueIdx

variable {F : FTy → Type} [FloatOps F]

/-! ## The operands' re-layings, one element each -/

/-- The points' block without its batch axis: row `r`, channel `ch` is the block's `(0, r, ch)`. -/
theorem centre_row (x1 : Vec F S1x128x64 .f32) (a : Fin 1) (r : Fin 128) (ch : Fin 64) :
    k0_pay1 x1 (ix2 r ch) = x1 (ix3 a r ch) := by
  have ha : a.val < 1 := a.isLt
  unfold k0_pay1
  refine shapeCast_apply x1 _ (ix2 r ch) (ix3 a r ch) ?_
  rw [Shape.rowMajor_val_three, Shape.rowMajor_val_two]
  show (a.val * 128 + r.val) * 64 + ch.val = r.val * 64 + ch.val
  omega

/-- The neighbours' block without its batch axis: `(r, k, ch)` is the block's `(0, r, k, ch)`. -/
theorem neighbour_at (x0 : Vec F S1x128x16x64 .f32) (h : S1x128x16x64.ShapeCasts S128x16x64)
    (a : Fin 1) (r : Fin 128) (k : Fin 16) (ch : Fin 64) :
    shapeCast S128x16x64 x0 h (ix3 r k ch) = x0 (ix4 a r k ch) := by
  have ha : a.val < 1 := a.isLt
  refine shapeCast_apply x0 h (ix3 r k ch) (ix4 a r k ch) ?_
  rw [Shape.rowMajor_val_four, Shape.rowMajor_val_three]
  show ((a.val * 128 + r.val) * 16 + k.val) * 64 + ch.val = (r.val * 16 + k.val) * 64 + ch.val
  omega

/-- The points' features given a unit neighbour axis and spread along it: every neighbour `k` of point `r` sees the
    point's own channel `ch`. -/
theorem centre_over_neighbours (x1 : Vec F S1x128x64 .f32) (h₁ : S128x64.ShapeCasts S128x1x64)
    (h₂ : S128x1x64.ShapeCasts S128x1x64) (h₃ : S128x1x64.Broadcasts S128x16x64)
    (a : Fin 1) (r : Fin 128) (k : Fin 16) (ch : Fin 64) :
    broadcastTo S128x16x64 (shapeCast S128x1x64 (shapeCast S128x1x64 (k0_pay1 x1) h₁) h₂) h₃ (ix3 r k ch)
      = x1 (ix3 a r ch) := by
  refine (broadcastTo_apply _ h₃ (ix3 r k ch) (ix3 r (0 : Fin 1) ch) (fun b => match b with
    | ⟨0, _⟩ => by show r.val = if (128 : Nat) = 1 then 0 else r.val; rw [if_neg (by decide)]
    | ⟨1, _⟩ => by show (0 : Nat) = if (1 : Nat) = 1 then 0 else k.val; rw [if_pos rfl]
    | ⟨2, _⟩ => by show ch.val = if (64 : Nat) = 1 then 0 else ch.val; rw [if_neg (by decide)])).trans ?_
  rw [shapeCast_self]
  refine (shapeCast_apply _ h₁ (ix3 r (0 : Fin 1) ch) (ix2 r ch) ?_).trans (centre_row x1 a r ch)
  rw [Shape.rowMajor_val_two, Shape.rowMajor_val_three]
  show r.val * 64 + ch.val = (r.val * 1 + 0) * 64 + ch.val
  omega

/-- The points' features given a unit trailing axis and spread along it: at point `r`, channel `ch`, every neighbour
    slot holds the point's own channel `ch`. -/
theorem centre_over_slots (x1 : Vec F S1x128x64 .f32) (h₁ : S128x64.ShapeCasts S128x64x1)
    (h₂ : S128x64x1.ShapeCasts S128x64x1) (h₃ : S128x64x1.Broadcasts S128x64x16)
    (a : Fin 1) (r : Fin 128) (ch : Fin 64) (k : Fin 16) :
    broadcastTo S128x64x16 (shapeCast S128x64x1 (shapeCast S128x64x1 (k0_pay1 x1) h₁) h₂) h₃ (ix3 r ch k)
      = x1 (ix3 a r ch) := by
  refine (broadcastTo_apply _ h₃ (ix3 r ch k) (ix3 r ch (0 : Fin 1)) (fun b => match b with
    | ⟨0, _⟩ => by show r.val = if (128 : Nat) = 1 then 0 else r.val; rw [if_neg (by decide)]
    | ⟨1, _⟩ => by show ch.val = if (64 : Nat) = 1 then 0 else ch.val; rw [if_neg (by decide)]
    | ⟨2, _⟩ => by show (0 : Nat) = if (1 : Nat) = 1 then 0 else k.val; rw [if_pos rfl])).trans ?_
  rw [shapeCast_self]
  refine (shapeCast_apply _ h₁ (ix3 r ch (0 : Fin 1)) (ix2 r ch) ?_).trans (centre_row x1 a r ch)
  rw [Shape.rowMajor_val_two, Shape.rowMajor_val_three]
  show r.val * 64 + ch.val = (r.val * 64 + ch.val) * 1 + 0
  omega

/-! ## The two stored pieces -/

/-- The piece stored into channels 0–63: at point `r`, channel `ch`, neighbour `k` it is the neighbour's channel
    minus the point's — the subtraction happens before the transpose, on `(r, k, ch)`. -/
theorem difference_piece (x0 : Vec F S1x128x16x64 .f32) (x1 : Vec F S1x128x64 .f32)
    (a : Fin 1) (r : Fin 128) (ch : Fin 64) (k : Fin 16) :
    k0_pay2 x0 x1 (ix4 a r ch k) = FloatOps.subf (x0 (ix4 a r k ch)) (x1 (ix3 a r ch)) := by
  have ha : a.val < 1 := a.isLt
  unfold k0_pay2
  -- the batch axis put back: (0, r, ch, k) of the stored value is (r, ch, k) of the transposed difference
  refine (shapeCast_apply _ _ (ix4 a r ch k) (ix3 r ch k) (by
    rw [Shape.rowMajor_val_three, Shape.rowMajor_val_four]
    show (r.val * 64 + ch.val) * 16 + k.val = ((a.val * 128 + r.val) * 64 + ch.val) * 16 + k.val
    omega)).trans ?_
  -- the transpose exchanges the last two axes: (r, ch, k) reads the difference at (r, k, ch)
  refine (transpose_apply _ _ _ (ix3 r ch k) (ix3 r k ch) (fun b => match b with
    | ⟨0, _⟩ => rfl | ⟨1, _⟩ => rfl | ⟨2, _⟩ => rfl)).trans ?_
  exact congrArg₂ FloatOps.subf (neighbour_at x0 _ a r k ch) (centre_over_neighbours x1 _ _ _ a r k ch)

/-- The piece stored into channels 64–127: at point `r`, channel `ch`, neighbour `k` it is the point's channel. -/
theorem centre_piece (x1 : Vec F S1x128x64 .f32) (a : Fin 1) (r : Fin 128) (ch : Fin 64) (k : Fin 16) :
    k0_pay3 x1 (ix4 a r ch k) = x1 (ix3 a r ch) := by
  have ha : a.val < 1 := a.isLt
  unfold k0_pay3
  refine (shapeCast_apply _ _ (ix4 a r ch k) (ix3 r ch k) (by
    rw [Shape.rowMajor_val_three, Shape.rowMajor_val_four]
    show (r.val * 64 + ch.val) * 16 + k.val = ((a.val * 128 + r.val) * 64 + ch.val) * 16 + k.val
    omega)).trans ?_
  exact centre_over_slots x1 _ _ _ a r ch k

/-! ## The block -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- WHAT THE BODY LEAVES in the output block is the edge-feature function of its two input blocks: the piece over
    channels 0–63 is its lower half, the piece over channels 64–127 (offset 64 on the channel axis) its upper half,
    and between them they cover the block. -/
theorem block_eq (x0 : Vec F S1x128x16x64 .f32) (x1 : Vec F S1x128x64 .f32) :
    out0_2 x0 x1 = edge (B := 1) (N := 128) x0 x1 := by
  funext y
  unfold out0_2
  simp only [View.ld_unit_zero (S := S1x128x16x64) zeros4, View.ld_unit_zero (S := S1x128x64) zeros3]
  refine View.canon_apply_of_pieces (edge (B := 1) (N := 128) x0 x1) _ ?_ y (cover0_2 _ _ y)
  intro pc hpc p
  rcases List.mem_cons.mp hpc with rfl | hpc
  · -- the upper piece: block channel 64 + ch
    obtain ⟨a, r, ch, k, rfl⟩ : ∃ (a : Fin 1) (r : Fin 128) (ch : Fin 64) (k : Fin 16), p = ix4 a r ch k :=
      ⟨p 0, p 1, p 2, p 3, eq_ix4 p⟩
    have hch : ch.val < 64 := ch.isLt
    show k0_pay3 x1 (ix4 a r ch k) = edge (B := 1) (N := 128) x0 x1 (r0_3.emb (ix4 a r ch k))
    refine (centre_piece x1 a r ch k).trans (Eq.trans ?_
      (edge_hi x0 x1 (r0_3.emb (ix4 a r ch k)) (by show ¬(64 + 1 * ch.val < 64); omega)).symm)
    refine congrArg x1 (funext fun b => ?_)
    match b with
    | ⟨0, _⟩ => apply Fin.ext; show a.val = 0 + 1 * a.val; omega
    | ⟨1, _⟩ => apply Fin.ext; show r.val = 0 + 1 * r.val; omega
    | ⟨2, _⟩ => apply Fin.ext; show ch.val = (64 + 1 * ch.val) % 64; omega
  rcases List.mem_cons.mp hpc with rfl | hpc
  · -- the lower piece: block channel ch
    obtain ⟨a, r, ch, k, rfl⟩ : ∃ (a : Fin 1) (r : Fin 128) (ch : Fin 64) (k : Fin 16), p = ix4 a r ch k :=
      ⟨p 0, p 1, p 2, p 3, eq_ix4 p⟩
    have hch : ch.val < 64 := ch.isLt
    show k0_pay2 x0 x1 (ix4 a r ch k) = edge (B := 1) (N := 128) x0 x1 (r0_2.emb (ix4 a r ch k))
    refine (difference_piece x0 x1 a r ch k).trans (Eq.trans ?_
      (edge_lo x0 x1 (r0_2.emb (ix4 a r ch k)) (by show 0 + 1 * ch.val < 64; omega)).symm)
    refine congrArg₂ FloatOps.subf (congrArg x0 (funext fun b => ?_)) (congrArg x1 (funext fun b => ?_))
    · match b with
      | ⟨0, _⟩ => apply Fin.ext; show a.val = 0 + 1 * a.val; omega
      | ⟨1, _⟩ => apply Fin.ext; show r.val = 0 + 1 * r.val; omega
      | ⟨2, _⟩ => apply Fin.ext; show k.val = 0 + 1 * k.val; omega
      | ⟨3, _⟩ => apply Fin.ext; show ch.val = (0 + 1 * ch.val) % 64; omega
    · match b with
      | ⟨0, _⟩ => apply Fin.ext; show a.val = 0 + 1 * a.val; omega
      | ⟨1, _⟩ => apply Fin.ext; show r.val = 0 + 1 * r.val; omega
      | ⟨2, _⟩ => apply Fin.ext; show ch.val = (0 + 1 * ch.val) % 64; omega
  nomatch hpc

end Cert.KernelIdeal.EdgeBody

end
-- ==== Proof.EdgeArray.lean ====
/-
  From the blocks to the whole array: what the kernel's program leaves in its result.

  The grid has 8 × 64 points; point `t` is batch `t / 64`, row tile `t mod 64` (the last grid axis moves fastest), and
  every window's block index is that pair followed by zeros: the neighbours' block is rows `128·(t mod 64) …` of batch
  `t / 64` with all 16 neighbours and 64 channels, the points' block the same rows with all 64 channels, the output block
  the same rows with all 128 channels and 16 neighbours. So an element of the output block at (0, r, ch, k) sits in the
  result at (t / 64, 128·(t mod 64) + r, ch, k), the input blocks' elements at the same batch and row, and — the
  edge-feature function acting on each (batch, row) separately — what point `t` writes back is block `t` of the
  edge features of the WHOLE arrays (`written_back`). The 512 blocks tile the result (row `n` of batch `b` lies in the
  block of point `64·b + n / 128`), so the result ends as that function of the two arrays the region found
  (`result_array`). Those are: the points' features, the program's first argument untouched, and the neighbours' rows,
  which the host gathered before the region from the two arguments (`neighbours`, `found_neighbours`). `run` is the
  frame run re-posted with that value.
-/
import proofs.«159042_j79594333929751_2_alg».proof.Proof.Gen.KernelIdeal.Value
import proofs.«159042_j79594333929751_2_alg».proof.Proof.EdgeBody
import Idealize.ShloMosaic.Lib.Pipeline.Value
import Idealize.ShloMosaic.Lib.StableHlo.Run
import Idealize.ShloMosaic.Lib.ValueIdx

noncomputable section

namespace Cert.KernelIdeal.EdgeValue

open Cert.KernelIdeal Cert.KernelIdeal.Gen Cert.KernelIdeal.Value Cert.KernelIdeal.EdgeBody Cert.EdgeFeature
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The neighbours' rows, gathered on the host before the region -/

/-- The rows the host gathers: a negative index counts from the end (8192 is added to it), and the row of `x` at the
    resulting index is taken for every point and neighbour slot. -/
def neighbours (x : (⟨S8x8192x64, .f32⟩ : BufTy).Contents (Elt F)) (idx : (⟨S8x8192x16, .i32⟩ : BufTy).Contents (Elt F)) :
    (⟨S8x8192x16x64, .f32⟩ : BufTy).Contents (Elt F) :=
  Host.gather gather_S8x8192x64_S8x8192x16x1_S8x8192x16x64_3_1_0_0_1_3_1164 x
    (broadcastInDim S8x8192x16x1 ![0, 1, 2] bcast_S8x8192x16_S8x8192x16x1_0_1_2
      (select (cmpi .slt idx (broadcastInDim S8x8192x16 ![] bcast_S_S8x8192x16 (constantI S_ 32 0#32)))
        (addi idx (broadcastInDim S8x8192x16 ![] bcast_S_S8x8192x16 (constantI S_ 32 8192#32))) idx))

/-- The region finds the gathered rows in the window-0 array. -/
theorem found_neighbours (c : Dev nD) :
    (V m c main_v6 : (⟨S8x8192x16x64, .f32⟩ : BufTy).Contents (Elt F))
      = neighbours (F := F) (m ((c : Thread nD τ).loc main_arg0)) (m ((c : Thread nD τ).loc main_arg1)) := by
  dsimp only [V, hostOps0]
  after_results
  rfl

/-! ## The index maps over the grid -/

/-- The three windows' block indices at every point: batch and row tile shared, every other axis whole; the output's
    batch is `t / 64` and its row tile `t mod 64`. -/
theorem block_indices : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 3) = win0_2.index t (0 : Fin 4) ∧ win0_1.index t (1 : Fin 3) = win0_2.index t (1 : Fin 4)
    ∧ win0_1.index t (2 : Fin 3) = 0
    ∧ win0_2.index t (2 : Fin 4) = 0 ∧ win0_2.index t (3 : Fin 4) = 0
    ∧ win0_2.index t (0 : Fin 4) = t.val / 64 ∧ win0_2.index t (1 : Fin 4) = t.val % 64 :=
  (by decide +kernel : ∀ t : Fin grid0.N, _)

/-! ## What a point writes back -/

/-- WHAT POINT `t` WRITES BACK is block `t` of the edge features of the two arrays the region found. -/
theorem written_back (c : Dev nD) (t : Fin cfg0.N) :
    (dats m 0 c).flushed 2 t
      = ((cfg0.win 2).blk t).view.read (Elt F) (edge (B := 8) (N := 8192) (V m c main_v6) (V m c main_arg0)) := by
  rw [flushed2, block_eq]
  obtain ⟨e0, e1, e2, e3, e4, e5, e6, e7, e8, -, -⟩ := block_indices t
  funext j
  obtain ⟨a, r, ch, k, rfl⟩ : ∃ (a : Fin 1) (r : Fin 128) (ch : Fin 128) (k : Fin 16), j = ix4 a r ch k :=
    ⟨j 0, j 1, j 2, j 3, eq_ix4 j⟩
  show edge (B := 1) (N := 128) (iblk m c 0 t) (iblk m c 1 t) (ix4 a r ch k)
    = edge (B := 8) (N := 8192) (V m c main_v6) (V m c main_arg0) (((cfg0.win 2).blk t).view.emb (ix4 a r ch k))
  refine edge_restrict _ _ _ _ _ _ ?_ (fun c' => ?_) (fun c' => ?_)
  · -- the channel: the output block spans all 128 channels
    show ch.val = win0_2.index t (2 : Fin 4) * 128 + 1 * ch.val
    omega
  · -- the neighbours' block, at the output element's batch, row and neighbour
    show V m c main_v6 (((cfg0.win 0).blk t).view.emb (ix4 a r k c')) = _
    refine congrArg (V m c main_v6) (funext fun b => ?_)
    match b with
    | ⟨0, _⟩ => apply Fin.ext; show win0_0.index t (0 : Fin 4) * 1 + 1 * a.val = win0_2.index t (0 : Fin 4) * 1 + 1 * a.val; omega
    | ⟨1, _⟩ => apply Fin.ext; show win0_0.index t (1 : Fin 4) * 128 + 1 * r.val = win0_2.index t (1 : Fin 4) * 128 + 1 * r.val; omega
    | ⟨2, _⟩ => apply Fin.ext; show win0_0.index t (2 : Fin 4) * 16 + 1 * k.val = win0_2.index t (3 : Fin 4) * 16 + 1 * k.val; omega
    | ⟨3, _⟩ => apply Fin.ext; show win0_0.index t (3 : Fin 4) * 64 + 1 * c'.val = c'.val; omega
  · -- the points' block, at the output element's batch and row
    show V m c main_arg0 (((cfg0.win 1).blk t).view.emb (ix3 a r c')) = _
    refine congrArg (V m c main_arg0) (funext fun b => ?_)
    match b with
    | ⟨0, _⟩ => apply Fin.ext; show win0_1.index t (0 : Fin 3) * 1 + 1 * a.val = win0_2.index t (0 : Fin 4) * 1 + 1 * a.val; omega
    | ⟨1, _⟩ => apply Fin.ext; show win0_1.index t (1 : Fin 3) * 128 + 1 * r.val = win0_2.index t (1 : Fin 4) * 128 + 1 * r.val; omega
    | ⟨2, _⟩ => apply Fin.ext; show win0_1.index t (2 : Fin 3) * 64 + 1 * c'.val = c'.val; omega

/-! ## The blocks tile the result -/

/-- An index of the result is in point `t`'s block iff each coordinate is in the block's range on its axis. -/
theorem mem_block (t : Fin cfg0.N) (i : S8x8192x128x16.Idx) :
    i ∈ ((cfg0.win 2).blk t).view.set ↔ ∀ a : Fin 4, win0_2.index t a * S1x128x128x16.size a ≤ (i a).val
      ∧ (i a).val < win0_2.index t a * S1x128x128x16.size a + S1x128x128x16.size a := by
  show i ∈ ((View.whole main_v7).slice (win0_2.rect t)).set ↔ _
  rw [View.set_slice_whole, Rect.mem_set_unit]
  exact Iff.rfl

/-- Every index of the result is in some point's block: row `n` of batch `b` in that of point `64·b + n / 128`. -/
theorem tiled (i : S8x8192x128x16.Idx) :
    ∃ t : Fin cfg0.N, (cfg0.win 2).flush t = true ∧ i ∈ ((cfg0.win 2).blk t).view.set := by
  have h0 : (i 0).val < 8 := (i 0).isLt
  have h1 : (i 1).val < 8192 := (i 1).isLt
  have h2 : (i 2).val < 128 := (i 2).isLt
  have h3 : (i 3).val < 16 := (i 3).isLt
  have hN : cfg0.N = 512 := N_0
  let t : Fin cfg0.N := ⟨(i 0).val * 64 + (i 1).val / 128, by rw [hN]; omega⟩
  obtain ⟨-, -, -, -, -, -, -, e7, e8, e9, e10⟩ := block_indices t
  have ht : t.val = (i 0).val * 64 + (i 1).val / 128 := rfl
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 128 ≤ (i 2).val ∧ (i 2).val < win0_2.index t (2 : Fin 4) * 128 + 128; omega
  | ⟨3, _⟩ => show win0_2.index t (3 : Fin 4) * 16 ≤ (i 3).val ∧ (i 3).val < win0_2.index t (3 : Fin 4) * 16 + 16; omega

/-! ## The result, and the run -/

/-- THE RESULT ARRAY after the run: the edge features of the gathered neighbours' rows and of the points' features. -/
theorem result_array (c : Dev nD) :
    (dats m 0 c).arrAt 2 cfg0.N
      = edge (B := 8) (N := 8192) (neighbours (F := F) (m ((c : Thread nD τ).loc main_arg0)) (m ((c : Thread nD τ).loc main_arg1)))
          (m ((c : Thread nD τ).loc main_arg0)) := by
  rw [← found_neighbours m c, ← V_main_arg0 m c]
  exact (dats m 0 c).arrAt_eq_of_cover 2 _ (fun t _ => written_back m c t) tiled

/-- The frame run re-posted: the result at the edge features of the arguments, the arguments unchanged. -/
theorem run : θ_run defs (onTc (τ := τ) (main (F := F))) ⟨m, fun _ => 0, ρ⟩ fun r => ∀ c : Dev nD,
      r.2.mem ((c : Thread nD τ).loc main_v7)
        = edge (B := 8) (N := 8192) (neighbours (F := F) (m ((c : Thread nD τ).loc main_arg0)) (m ((c : Thread nD τ).loc main_arg1)))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (run_blocks m ρ)

end Cert.KernelIdeal.EdgeValue

end
-- ==== Proof.EdgeReference.lean ====
/-
  The reference's result, read index by index, is the edge-feature function.

  The reference gathers the neighbours' feature rows `g`, spreads the points' features `x` along a new neighbour axis,
  subtracts, joins difference and spread features along the channel axis (channels 0–63 the difference, 64–127 the
  features), and exchanges the neighbour and channel axes. Read backwards from the result at (b, n, ch, k): the transpose
  reads the joined array at (b, n, k, ch); the join reads its first operand at channel `ch` when `ch < 64` and its second at
  `ch − 64` otherwise; the difference is taken element by element; the spread features at (b, n, k, c) are `x (b, n, c)`.
  That is `EdgeSpec`'s function of `g` and `x`. The gather itself is never opened: it is the operand `g`.
-/
import proofs.«159042_j79594333929751_2_alg».proof.Proof.Gen.ReferenceIdeal.Read
import proofs.«159042_j79594333929751_2_alg».proof.Proof.EdgeSpec
import Idealize.ShloMosaic.Lib.Pipeline.Value
import Idealize.ShloMosaic.Lib.ValueIdx

noncomputable section

namespace Cert.ReferenceIdeal.EdgeRead

open Cert.ReferenceIdeal Cert.ReferenceIdeal.Gen Cert.ReferenceIdeal.Read Cert.EdgeFeature
open Idealize.ShloMosaic Idealize.ShloMosaic.ValueIdx

variable {F : FTy → Type} [FloatOps F]

/-- The points' features spread along the neighbour axis: every neighbour slot `k` of point `n` holds the point's channel. -/
theorem centre_at (x0 : (⟨S8x8192x64, .f32⟩ : BufTy).Contents (Elt F)) (b : Fin 8) (n : Fin 8192) (k : Fin 16) (c : Fin 64) :
    val_main_v8 (F := F) x0 (ix4 b n k c) = x0 (ix3 b n c) := by
  rw [val_main_v8_apply, val_main_v7_apply]
  refine congrArg x0 (funext fun a => ?_)
  match a with
  | ⟨0, _⟩ => rfl
  | ⟨1, _⟩ => rfl
  | ⟨2, _⟩ => rfl

/-- THE REFERENCE'S RESULT is the edge-feature function of its gathered neighbour rows and of the points' features. -/
theorem result_eq (x0 : (⟨S8x8192x64, .f32⟩ : BufTy).Contents (Elt F)) (x1 : (⟨S8x8192x16, .i32⟩ : BufTy).Contents (Elt F)) :
    val_main_v11 (F := F) x0 x1 = edge (B := 8) (N := 8192) (val_main_v6 (F := F) x0 x1) x0 := by
  funext i
  obtain ⟨b, n, ch, k, rfl⟩ : ∃ (b : Fin 8) (n : Fin 8192) (ch : Fin 128) (k : Fin 16), i = ix4 b n ch k :=
    ⟨i 0, i 1, i 2, i 3, eq_ix4 i⟩
  have hch : ch.val < 128 := ch.isLt
  rw [val_main_v11_apply]
  unfold val_main_v10
  by_cases h : ch.val < 64
  · -- a channel of the difference
    refine Eq.trans (concatenate_pair_apply_left (t := S8x8192x16x128) (s₁ := S8x8192x16x64) (s₂ := S8x8192x16x64)
      (3 : Fin 4) (val_main_v9 (F := F) x0 x1) (val_main_v8 (F := F) x0) concatenates_S8x8192x16x64_S8x8192x16x64_S8x8192x16x128_d3
      (idx_main_v11 (ix4 b n ch k)) rfl (ix4 b n k (chan ch)) (fun a => ?_)) ?_
    · match a with
      | ⟨0, _⟩ => rfl
      | ⟨1, _⟩ => rfl
      | ⟨2, _⟩ => rfl
      | ⟨3, _⟩ => show ch.val % 64 = ch.val; omega
    · rw [val_main_v9_apply, centre_at]
      exact (edge_lo (val_main_v6 (F := F) x0 x1) x0 (ix4 b n ch k) h).symm
  · -- a channel of the points' own features
    refine Eq.trans (concatenate_pair_apply_right (t := S8x8192x16x128) (s₁ := S8x8192x16x64) (s₂ := S8x8192x16x64)
      (3 : Fin 4) (val_main_v9 (F := F) x0 x1) (val_main_v8 (F := F) x0) concatenates_S8x8192x16x64_S8x8192x16x64_S8x8192x16x128_d3
      (idx_main_v11 (ix4 b n ch k)) rfl rfl (ix4 b n k (chan ch)) (fun a ha => ?_) ?_) ?_
    · match a with
      | ⟨0, _⟩ => rfl
      | ⟨1, _⟩ => rfl
      | ⟨2, _⟩ => rfl
      | ⟨3, _⟩ => exact absurd rfl ha
    · show ch.val % 64 + 64 = ch.val; omega
    · rw [centre_at]
      exact (edge_hi (val_main_v6 (F := F) x0 x1) x0 (ix4 b n ch k) h).symm

end Cert.ReferenceIdeal.EdgeRead

end
-- ==== Proof.lean ====
/-
  The kernel's program and the reference compute the same edge features of a point cloud.

  Both take the points' features `x` (8 batches of 8192 points, 64 channels) and an integer array of 16 neighbour indices per
  point, and both start with the same host operations: a negative index has 8192 added to it, and the rows of `x` at the
  indices are gathered into `g` (8 × 8192 × 16 × 64). From there the reference subtracts `x`, spread along the neighbour axis,
  from `g`, joins the difference and the spread `x` along the channel axis and exchanges the last two axes; the kernel's
  program walks a grid of 8 × 64 row tiles and, per tile, stores the transposed difference into channels 0–63 and the
  spread features into channels 64–127 of its output block. Either way the result at (b, n, ch, k) is
  `g (b, n, k, ch) − x (b, n, ch)` for `ch < 64` and `x (b, n, ch − 64)` otherwise (`EdgeSpec`): for the reference by
  reading its operations backwards at an index (`EdgeReference`), for the kernel's program by reading the body's two stored
  pieces (`EdgeBody`) and then the 512 written-back blocks, which tile the result (`EdgeArray`). The one subtraction is
  applied to the same two elements on both sides, so no law of the extended reals is used and the inputs' finiteness is
  never opened; the gather is the same term of the same arguments on both sides and is never opened either.
  The idealization rewrote nothing, so `preserves` is `True`; the three frames are the generated frame runs.
-/
import proofs.«159042_j79594333929751_2_alg».proof.Defs
import proofs.«159042_j79594333929751_2_alg».proof.Proof.Gen.Kernel
import proofs.«159042_j79594333929751_2_alg».proof.Proof.Gen.Kernel.Skeleton
import proofs.«159042_j79594333929751_2_alg».proof.Proof.Gen.Kernel.Launch
import proofs.«159042_j79594333929751_2_alg».proof.Proof.Gen.Kernel.Points
import proofs.«159042_j79594333929751_2_alg».proof.Proof.Gen.Kernel.Frame
import proofs.«159042_j79594333929751_2_alg».proof.Proof.Gen.KernelIdeal
import proofs.«159042_j79594333929751_2_alg».proof.Proof.Gen.KernelIdeal.Skeleton
import proofs.«159042_j79594333929751_2_alg».proof.Proof.Gen.KernelIdeal.Launch
import proofs.«159042_j79594333929751_2_alg».proof.Proof.Gen.KernelIdeal.Points
import proofs.«159042_j79594333929751_2_alg».proof.Proof.Gen.KernelIdeal.Frame
import proofs.«159042_j79594333929751_2_alg».proof.Proof.Gen.ReferenceIdeal
import proofs.«159042_j79594333929751_2_alg».proof.Proof.Gen.Pre_finite_inputs
import proofs.«159042_j79594333929751_2_alg».proof.Proof.Gen.KernelIdeal.Value
import proofs.«159042_j79594333929751_2_alg».proof.Proof.Gen.ReferenceIdeal.Run
import proofs.«159042_j79594333929751_2_alg».proof.Proof.Gen.ReferenceIdeal.Read
import proofs.«159042_j79594333929751_2_alg».proof.Proof.EdgeArray
import proofs.«159042_j79594333929751_2_alg».proof.Proof.EdgeReference
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernel_ideal : Cert.frame_KernelIdeal := fun m ρ _ => Cert.KernelIdeal.Gen.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-! ## The two results -/

/-- Both programs gather the neighbours' rows by the same host operations of the same two arguments. -/
theorem same_neighbours (x : (⟨Cert.KernelIdeal.S8x8192x64, .f32⟩ : BufTy).Contents (Elt Ideal))
    (idx : (⟨Cert.KernelIdeal.S8x8192x16, .i32⟩ : BufTy).Contents (Elt Ideal)) :
    Cert.KernelIdeal.EdgeValue.neighbours (F := Ideal) x idx = Cert.ReferenceIdeal.Read.val_main_v6 (F := Ideal) x idx :=
  rfl

/-- From memories that agree on the two arguments both programs end with the edge features of the gathered rows and the
    points' features: the kernel's program by its blocks (`EdgeValue.run`), the reference by its operations read at an
    index (`EdgeRead.result_eq`). -/
theorem algebraic : Cert.algebraic_KernelIdeal_ReferenceIdeal := by
  intro m ρ m' ρ' _ hagree
  refine ⟨_, Cert.KernelIdeal.EdgeValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.EdgeRead.result_eq, (hagree c).1, (hagree c).2,
    same_neighbours]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
